-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x10 : Shape := ⟨3, ![8, 2048, 10]⟩
abbrev S8x2048x2048 : Shape := ⟨3, ![8, 2048, 2048]⟩
abbrev S32x10 : Shape := ⟨2, ![32, 10]⟩
abbrev S_ : Shape := ⟨0, ![]⟩

class Facts : Prop where
  bcast_S_S8x2048x10 : S_.BroadcastsInDim S8x2048x10 (![] : Fin 0 → Fin S8x2048x10.rank)
  reducesTo_S8x2048x10_S_d0_1_2 : S8x2048x10.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S32x10 : S_.BroadcastsInDim S32x10 (![] : Fin 0 → Fin S32x10.rank)
  reducesTo_S32x10_S_d0_1 : S32x10.ReducesTo [0, 1] S_

variable [Facts]

def fn_part1 {F : FTy → Type} [FloatOps F] (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  main_v18

def fn {F : FTy → Type} [FloatOps F] (main_arg0 : FVec F S8x2048x10 .f32) (main_arg1 : FVec F S8x2048x2048 .f32) (main_arg2 : FVec F S32x10 .f32) (main_arg3 : FVec F S32x10 .f32) : IVec S_ 1 :=
  let main_v0 : FVec F S8x2048x10 .f32 := Host.absf main_arg0
  let main_cst : FVec F S_ .f32 := constant S_ .f32 0x7F800000#32
  let main_v1 : FVec F S8x2048x10 .f32 := broadcastInDim S8x2048x10 ![] bcast_S_S8x2048x10 main_cst
  let main_v2 : IVec S8x2048x10 1 := cmpf .olt main_v0 main_v1
  let main_c : IVec S_ 1 := constantI S_ 1 1#1
  let main_v3 : IVec S_ 1 := (fun x v => Host.reduce IntOp.andi x v reducesTo_S8x2048x10_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S32x10 .f32 := Host.absf main_arg2
  let main_cst_2 : FVec F S_ .f32 := constant S_ .f32 0x7F800000#32
  let main_v10 : FVec F S32x10 .f32 := broadcastInDim S32x10 ![] bcast_S_S32x10 main_cst_2
  let main_v11 : IVec S32x10 1 := cmpf .olt main_v9 main_v10
  let main_c_3 : IVec S_ 1 := constantI S_ 1 1#1
  let main_v12 : IVec S_ 1 := (fun x v => Host.reduce IntOp.andi x v reducesTo_S32x10_S_d0_1 h_S_) main_v11 main_c_3
  let main_v13 : IVec S_ 1 := andi main_v8 main_v12
  let main_v14 : FVec F S32x10 .f32 := Host.absf main_arg3
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_v13 main_v16
-- ==== Kernel.lean ====
abbrev S8x2048x10 : Shape := ⟨3, ![8, 2048, 10]⟩
abbrev S8x2048x2048 : Shape := ⟨3, ![8, 2048, 2048]⟩
abbrev S32x10 : Shape := ⟨2, ![32, 10]⟩
abbrev S1x1024x10 : Shape := ⟨3, ![1, 1024, 10]⟩
abbrev S1x2048x10 : Shape := ⟨3, ![1, 2048, 10]⟩
abbrev S1x1024x2048 : Shape := ⟨3, ![1, 1024, 2048]⟩
abbrev S1024x10 : Shape := ⟨2, ![1024, 10]⟩
abbrev S2048x10 : Shape := ⟨2, ![2048, 10]⟩
abbrev S1024x32 : Shape := ⟨2, ![1024, 32]⟩
abbrev S32x2048 : Shape := ⟨2, ![32, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x10, .f32⟩
  | .hbm, ⟨1, _⟩ => ⟨S8x2048x2048, .f32⟩
  | .hbm, ⟨2, _⟩ => ⟨S32x10, .f32⟩
  | .hbm, ⟨3, _⟩ => ⟨S32x10, .f32⟩
  | .hbm, ⟨4, _⟩ => ⟨S8x2048x2048, .f32⟩
  | .local _ .vmem, ⟨0, _⟩ => ⟨S1x1024x10, .f32⟩
  | .local _ .vmem, ⟨1, _⟩ => ⟨S1x1024x10, .f32⟩
  | .local _ .vmem, ⟨2, _⟩ => ⟨S1x2048x10, .f32⟩
  | .local _ .vmem, ⟨3, _⟩ => ⟨S1x2048x10, .f32⟩
  | .local _ .vmem, ⟨4, _⟩ => ⟨S1x1024x2048, .f32⟩
  | .local _ .vmem, ⟨5, _⟩ => ⟨S1x1024x2048, .f32⟩
  | .local _ .vmem, ⟨6, _⟩ => ⟨S32x10, .f32⟩
  | .local _ .vmem, ⟨7, _⟩ => ⟨S32x10, .f32⟩
  | .local _ .vmem, ⟨8, _⟩ => ⟨S1x1024x2048, .f32⟩
  | .local _ .vmem, ⟨9, _⟩ => ⟨S1x1024x2048, .f32⟩
  | _, _ => ⟨S8x2048x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1024x10_S1x1024x10_0_0_0 : ∀ a, (![0, 0, 0] : Fin 3 → Nat) a + S1x1024x10.size a ≤ S1x1024x10.size a
  h_S1x1024x10 : 0 < S1x1024x10.numel
  shapeCasts_S1x1024x10_S1024x10 : S1x1024x10.ShapeCasts S1024x10
  inb_S1x2048x10_S1x2048x10_0_0_0 : ∀ a, (![0, 0, 0] : Fin 3 → Nat) a + S1x2048x10.size a ≤ S1x2048x10.size a
  h_S1x2048x10 : 0 < S1x2048x10.numel
  shapeCasts_S1x2048x10_S2048x10 : S1x2048x10.ShapeCasts S2048x10
  inb_S32x10_S32x10_0_0 : ∀ a, (![0, 0] : Fin 2 → Nat) a + S32x10.size a ≤ S32x10.size a
  h_S32x10 : 0 < S32x10.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1024x2048 : S1024x2048.ShapeCasts S1x1024x2048
  dot_S1024x10_S32x10_S1024x32_1_1_0_0_n_n_wf : DotDims.WF S1024x10 S32x10 S1024x32 [1] [1] [0] [0] [] []
  dot_S32x10_S2048x10_S32x2048_1_1_0_0_n_n_wf : DotDims.WF S32x10 S2048x10 S32x2048 [1] [1] [0] [0] [] []
  dot_S1024x32_S32x2048_S1024x2048_1_0_0_1_n_n_wf : DotDims.WF S1024x32 S32x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x10.size a ≤ S8x2048x10.size a
  hwx0_0 : ∀ i : grid0.Coords, EltTy.bits .f32 = 32 ∨ (Rect.block (s := S8x2048x10) S1x1024x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x10.size a ≤ S8x2048x10.size a
  hwx0_1 : ∀ i : grid0.Coords, EltTy.bits .f32 = 32 ∨ (Rect.block (s := S8x2048x10) S1x2048x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x10.size a ≤ S32x10.size a
  hwx0_3 : ∀ i : grid0.Coords, EltTy.bits .f32 = 32 ∨ (Rect.block (s := S32x10) S32x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x10.size a ≤ S32x10.size a
  hwx0_4 : ∀ i : grid0.Coords, EltTy.bits .f32 = 32 ∨ (Rect.block (s := S32x10) S32x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x2048x2048.size a
  hwx0_5 : ∀ i : grid0.Coords, EltTy.bits .f32 = 32 ∨ (Rect.block (s := S8x2048x2048) S1x1024x2048.size (cc0_transform_5 i) (hinb0_5 i)).WholeWords (EltTy.packing .f32)

variable [Facts₀]

def dot_S1024x10_S32x10_S1024x32_1_1_0_0_n_n : DotDims S1024x10 S32x10 S1024x32 where
  lhsContracting := [1]
  rhsContracting := [1]
  lhsNonContracting := [0]
  rhsNonContracting := [0]
  lhsBatch := []
  rhsBatch := []
  wf := dot_S1024x10_S32x10_S1024x32_1_1_0_0_n_n_wf
def dot_S32x10_S2048x10_S32x2048_1_1_0_0_n_n : DotDims S32x10 S2048x10 S32x2048 where
  lhsContracting := [1]
  rhsContracting := [1]
  lhsNonContracting := [0]
  rhsNonContracting := [0]
  lhsBatch := []
  rhsBatch := []
  wf := dot_S32x10_S2048x10_S32x2048_1_1_0_0_n_n_wf
def dot_S1024x32_S32x2048_S1024x2048_1_0_0_1_n_n : DotDims S1024x32 S32x2048 S1024x2048 where
  lhsContracting := [1]
  rhsContracting := [0]
  lhsNonContracting := [0]
  rhsNonContracting := [1]
  lhsBatch := []
  rhsBatch := []
  wf := dot_S1024x32_S32x2048_S1024x2048_1_0_0_1_n_n_wf

abbrev win0_0 : Pipeline.Window sig grid0 :=
  Pipeline.Window.ofSpec (Memref.whole main_arg0) S1x1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x10 : Shape := ⟨3, ![8, 2048, 10]⟩
abbrev S8x2048x2048 : Shape := ⟨3, ![8, 2048, 2048]⟩
abbrev S32x10 : Shape := ⟨2, ![32, 10]⟩
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x10, .f32⟩
  | .hbm, ⟨1, _⟩ => ⟨S8x2048x2048, .f32⟩
  | .hbm, ⟨2, _⟩ => ⟨S32x10, .f32⟩
  | .hbm, ⟨3, _⟩ => ⟨S32x10, .f32⟩
  | .hbm, ⟨4, _⟩ => ⟨S8x2048x32, .f32⟩
  | .hbm, ⟨5, _⟩ => ⟨S8x2048x32, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | _, _ => ⟨S8x2048x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  dot_S8x2048x10_S32x10_S8x2048x32_2_1_01_0_n_n_wf : DotDims.WF S8x2048x10 S32x10 S8x2048x32 [2] [1] [0, 1] [0] [] []
  dot_S8x2048x32_S8x2048x32_S8x2048x2048_2_2_1_1_0_0_wf : DotDims.WF S8x2048x32 S8x2048x32 S8x2048x2048 [2] [2] [1] [1] [0] [0]

variable [Facts₀]

def dot_S8x2048x10_S32x10_S8x2048x32_2_1_01_0_n_n : DotDims S8x2048x10 S32x10 S8x2048x32 where
  lhsContracting := [2]
  rhsContracting := [1]
  lhsNonContracting := [0, 1]
  rhsNonContracting := [0]
  lhsBatch := []
  rhsBatch := []
  wf := dot_S8x2048x10_S32x10_S8x2048x32_2_1_01_0_n_n_wf
def dot_S8x2048x32_S8x2048x32_S8x2048x2048_2_2_1_1_0_0 : DotDims S8x2048x32 S8x2048x32 S8x2048x2048 where
  lhsContracting := [2]
  rhsContracting := [2]
  lhsNonContracting := [1]
  rhsNonContracting := [1]
  lhsBatch := [0]
  rhsBatch := [0]
  wf := dot_S8x2048x32_S8x2048x32_S8x2048x2048_2_2_1_1_0_0_wf

class Facts : Prop extends Facts₀ where

variable [Facts]
-- ==== Proof.LibSharedFrame.lean ====
/-
  A pipelined kernel may be handed ONE array through several input windows (a query tile and the whole
  key block of the same tensor).  The buffers behind the windows' arrays are then fewer than the windows,
  and the array's full share has to be dealt among the windows that read it.  This file states the frame
  run for that situation once: given how the distinct buffers make the proof data's arrays at entry
  (`hsplit`), every weakly fair execution of @main terminates and the final memory has every window's
  array at the proof data's `arrAt … N` and every other unscoped buffer as the region found it.

  The kernel is one that keeps nothing between grid points beyond its staging buffers and uses neither
  semaphores of its own nor the generator register: its invariant is the scoped rest alone.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run of a pipeline whose windows may share arrays.  `hsplit` says how the distinct buffers
    behind the arrays, each whole at the region-entry contents `V`, are dealt to the windows (an array
    read by two input windows is split along its share); `hΦ` says the body keeps nothing between points
    but the core's scoped buffers that are no staging buffer.  The post is the library's `FramePost`. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr [HU]; · iempintro
      iexact HU)
    (hin := fun c => by
      rw [hΦ]
      iintro ⟨-, Hr⟩; iexact Hr)
    (hout := fun c => by
      rw [hΦ]
      iintro Hr
      isplitr [Hr]; · iempintro
      iexact Hr)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.KernelFrame.lean ====
/-
  The frame of the program in `proofs.«141427_j90787018703157_2_alg».proof.Kernel`: it runs to the end, faults nowhere and leaves its four
  argument arrays unchanged; and, for the value claim, what its result array holds at the end.

  The pallas_call has six windows on a grid of 8 × 2 points.  Windows 0 and 1 read the SAME array (the
  tensor s): window 0 a tile of 1024 rows, window 1 all 2048 rows of the batch.  The array's full share
  is therefore dealt between them, half each; the other arrays are held whole.  The body loads its five
  input blocks, computes one value from them and stores it over the whole output block, so what an output
  block holds after the body is a function of the five input blocks at that point alone.
-/
import proofs.«141427_j90787018703157_2_alg».proof.Proof.Gen.Kernel.Launch
import proofs.«141427_j90787018703157_2_alg».proof.Proof.Gen.Kernel.Skeleton
import proofs.«141427_j90787018703157_2_alg».proof.Proof.Gen.Kernel.Points
import proofs.«141427_j90787018703157_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: the region alone, so the arrays are as launched -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## A window's block at a grid point -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it
    there or not: unfetched, the block index has not moved since the last fetch, so the block kept is the block
    of this point.  One statement per input window (the window's block shape is read off the literal window). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rA : Rect S1x1024x10 := Rect.unit (s := S1x1024x10) ![0, 0, 0] S1x1024x10.size inb_S1x1024x10_S1x1024x10_0_0_0
abbrev rB : Rect S1x2048x10 := Rect.unit (s := S1x2048x10) ![0, 0, 0] S1x2048x10.size inb_S1x2048x10_S1x2048x10_0_0_0
abbrev rW : Rect S32x10 := Rect.unit (s := S32x10) ![0, 0] S32x10.size inb_S32x10_S32x10_0_0
abbrev rG : Rect S1x1024x2048 := Rect.unit (s := S1x1024x2048) ![0, 0, 0] S1x1024x2048.size inb_S1x1024x2048_S1x1024x2048_0_0_0

/-- The output block after the body, from the five input blocks: its one store, which covers the block. -/
def outBlock (x0 : Vec F S1x1024x10 .f32) (x1 : Vec F S1x2048x10 .f32) (x2 : Vec F S1x1024x2048 .f32)
    (x3 : Vec F S32x10 .f32) (x4 : Vec F S32x10 .f32) : Vec F S1x1024x2048 .f32 :=
  View.canon [⟨rG, k0_pay1 (View.ld x0 rA) (View.ld x1 rB) (View.ld x3 rW) (View.ld x4 rW) (View.ld x2 rG)⟩]

theorem cover_out (p0 : Vec F S1x1024x2048 .f32) (y : S1x1024x2048.Idx) :
    ∃ pc ∈ ([⟨rG, p0⟩] : List (View.Piece (Elt F) S1x1024x2048 .f32)), y ∈ pc.1.set :=
  View.cover_of_tiled [⟨rG, p0⟩] S1x1024x2048.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg2 : Memref sig .tc .vmem S1x1024x10 .f32) (harg2 : arg2.IsWhole) (arg3 : Memref sig .tc .vmem S1x2048x10 .f32) (harg3 : arg3.IsWhole)
    (arg4 : Memref sig .tc .vmem S1x1024x2048 .f32) (harg4 : arg4.IsWhole) (arg5 : Memref sig .tc .vmem S32x10 .f32) (harg5 : arg5.IsWhole)
    (arg6 : Memref sig .tc .vmem S32x10 .f32) (harg6 : arg6.IsWhole) (arg7 : Memref sig .tc .vmem S1x1024x2048 .f32) (harg7 : arg7.IsWhole)
    (x0 : Vec F S1x1024x10 .f32) (x1 : Vec F S1x2048x10 .f32) (x2 : Vec F S1x1024x2048 .f32) (x3 : Vec F S32x10 .f32) (x4 : Vec F S32x10 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E (cc0__sparse_attn_kernel i arg2 harg2 arg3 harg3 arg4 harg4 arg5 harg5 arg6 harg6 arg7 harg7) K := by
  simp only [cc0__sparse_attn_kernel_eq_skeleton]; unfold cc0__sparse_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as launched; after the body each input's buffer at its block and the
    output's at `outBlock` of the five input blocks; nothing kept between points but the core's scoped buffers
    that are no staging buffer; nothing owed.  The tensor s is read through windows 0 and 1, which hold one
    half of its share each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The buffers behind the windows' arrays are five: the four arguments and the result. -/
theorem arrRefs_eq {M : Type} [URA M] (Φ : Ref sig .tc → sProp M) :
    bigSep (Finset.univ.image (Pipeline.arrRef spec0)) Φ = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- The proof data's arrays, each array a whole buffer. -/
theorem arrays_eq (c : Dev nD) (Fw : (w : Fin cfg0.W) → Buf (Elt F) ((cfg0.win w).arr.view.loc (c.tc : Thread nD τ))) :
    (dats m 0 c).arrays Fw
      = bigSep Finset.univ fun w : Fin 6 => (((c.tc : Thread nD τ).loc (Pipeline.arrRef spec0 w)) ↦{(dats m 0 c).share w} Fw w : sProp 𝕄) := by
  unfold Pipeline.Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five distinct buffers behind the six windows' arrays, each whole at its launch contents, make the proof
    data's arrays at entry: the tensor s is split along its share between windows 0 and 1. -/
theorem hsplit (c : Dev nD) :
    (Pipeline.arrBufs spec0 c (V m c) : sProp 𝕄) ⊢ (dats m 0 c).arrays ((dats m 0 c).arrAt · 0) := by
  unfold Pipeline.arrBufs
  rw [arrays_eq, arrRefs_eq, bigSep_W0, share0, share1, share2, share3, share4, share5]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-! ## The run and the frame -/

set_option backward.isDefEq.respectTransparency.types false in
/-- Every weakly fair execution of @main terminates, and every final state has each window's array at what the
    library computes from the proof data and every other unscoped buffer as launched. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The argument arrays end unchanged: each is some input window's array, and an input's array is never written. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans (A_eq m c 0)),
   ((h c).1 2).trans (((dats m 0 c).arrAt_in 2 rfl _).trans (A_eq m c 2)),
   ((h c).1 3).trans (((dats m 0 c).arrAt_in 3 rfl _).trans (A_eq m c 3)),
   ((h c).1 4).trans (((dats m 0 c).arrAt_in 4 rfl _).trans (A_eq m c 4))⟩

/-- The result array ends at the library's `arrAt` of window 5. -/
theorem post_out (r : PUnit × MemSt nD τ sig (Elt F)) (h : Pipeline.FramePost cfgs (dats m) 0 (V m) r) (c : Dev nD) :
    r.2.mem ((c.tc : Thread nD τ).loc main_v0) = (dats m 0 c).arrAt 5 cfg0.N := (h c).1 5

/-- The frame: the program runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

end Cert.Kernel.Frame

end
-- ==== Proof.KernelIdealFrame.lean ====
/-
  The frame of the program in `proofs.«141427_j90787018703157_2_alg».proof.KernelIdeal`: it runs to the end, faults nowhere and leaves its four
  argument arrays unchanged; and, for the value claim, what its result array holds at the end.

  The pallas_call has six windows on a grid of 8 × 2 points.  Windows 0 and 1 read the SAME array (the
  tensor s): window 0 a tile of 1024 rows, window 1 all 2048 rows of the batch.  The array's full share
  is therefore dealt between them, half each; the other arrays are held whole.  The body loads its five
  input blocks, computes one value from them and stores it over the whole output block, so what an output
  block holds after the body is a function of the five input blocks at that point alone.
-/
import proofs.«141427_j90787018703157_2_alg».proof.Proof.Gen.KernelIdeal.Launch
import proofs.«141427_j90787018703157_2_alg».proof.Proof.Gen.KernelIdeal.Skeleton
import proofs.«141427_j90787018703157_2_alg».proof.Proof.Gen.KernelIdeal.Points
import proofs.«141427_j90787018703157_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: the region alone, so the arrays are as launched -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## A window's block at a grid point -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it
    there or not: unfetched, the block index has not moved since the last fetch, so the block kept is the block
    of this point.  One statement per input window (the window's block shape is read off the literal window). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rA : Rect S1x1024x10 := Rect.unit (s := S1x1024x10) ![0, 0, 0] S1x1024x10.size inb_S1x1024x10_S1x1024x10_0_0_0
abbrev rB : Rect S1x2048x10 := Rect.unit (s := S1x2048x10) ![0, 0, 0] S1x2048x10.size inb_S1x2048x10_S1x2048x10_0_0_0
abbrev rW : Rect S32x10 := Rect.unit (s := S32x10) ![0, 0] S32x10.size inb_S32x10_S32x10_0_0
abbrev rG : Rect S1x1024x2048 := Rect.unit (s := S1x1024x2048) ![0, 0, 0] S1x1024x2048.size inb_S1x1024x2048_S1x1024x2048_0_0_0

/-- The output block after the body, from the five input blocks: its one store, which covers the block. -/
def outBlock (x0 : Vec F S1x1024x10 .f32) (x1 : Vec F S1x2048x10 .f32) (x2 : Vec F S1x1024x2048 .f32)
    (x3 : Vec F S32x10 .f32) (x4 : Vec F S32x10 .f32) : Vec F S1x1024x2048 .f32 :=
  View.canon [⟨rG, k0_pay1 (View.ld x0 rA) (View.ld x1 rB) (View.ld x3 rW) (View.ld x4 rW) (View.ld x2 rG)⟩]

theorem cover_out (p0 : Vec F S1x1024x2048 .f32) (y : S1x1024x2048.Idx) :
    ∃ pc ∈ ([⟨rG, p0⟩] : List (View.Piece (Elt F) S1x1024x2048 .f32)), y ∈ pc.1.set :=
  View.cover_of_tiled [⟨rG, p0⟩] S1x1024x2048.size (by rfl) y

/-! ## The body's triple -/

set_option maxHeartbeats 1000000 in
/-- The body on whole staging memrefs, the inputs' at contents `xW` and the output's at anything, runs to the
    continuation holding the inputs' as they were and the output's at `outBlock` of the inputs'. -/
theorem sound_kernel (c : Dev nD) (E : Set ℕ) (i : grid0.Coords)
    (arg2 : Memref sig .tc .vmem S1x1024x10 .f32) (harg2 : arg2.IsWhole) (arg3 : Memref sig .tc .vmem S1x2048x10 .f32) (harg3 : arg3.IsWhole)
    (arg4 : Memref sig .tc .vmem S1x1024x2048 .f32) (harg4 : arg4.IsWhole) (arg5 : Memref sig .tc .vmem S32x10 .f32) (harg5 : arg5.IsWhole)
    (arg6 : Memref sig .tc .vmem S32x10 .f32) (harg6 : arg6.IsWhole) (arg7 : Memref sig .tc .vmem S1x1024x2048 .f32) (harg7 : arg7.IsWhole)
    (x0 : Vec F S1x1024x10 .f32) (x1 : Vec F S1x2048x10 .f32) (x2 : Vec F S1x1024x2048 .f32) (x3 : Vec F S32x10 .f32) (x4 : Vec F S32x10 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E (cc0__sparse_attn_kernel i arg2 harg2 arg3 harg3 arg4 harg4 arg5 harg5 arg6 harg6 arg7 harg7) K := by
  simp only [cc0__sparse_attn_kernel_eq_skeleton]; unfold cc0__sparse_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as launched; after the body each input's buffer at its block and the
    output's at `outBlock` of the five input blocks; nothing kept between points but the core's scoped buffers
    that are no staging buffer; nothing owed.  The tensor s is read through windows 0 and 1, which hold one
    half of its share each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The buffers behind the windows' arrays are five: the four arguments and the result. -/
theorem arrRefs_eq {M : Type} [URA M] (Φ : Ref sig .tc → sProp M) :
    bigSep (Finset.univ.image (Pipeline.arrRef spec0)) Φ = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- The proof data's arrays, each array a whole buffer. -/
theorem arrays_eq (c : Dev nD) (Fw : (w : Fin cfg0.W) → Buf (Elt F) ((cfg0.win w).arr.view.loc (c.tc : Thread nD τ))) :
    (dats m 0 c).arrays Fw
      = bigSep Finset.univ fun w : Fin 6 => (((c.tc : Thread nD τ).loc (Pipeline.arrRef spec0 w)) ↦{(dats m 0 c).share w} Fw w : sProp 𝕄) := by
  unfold Pipeline.Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five distinct buffers behind the six windows' arrays, each whole at its launch contents, make the proof
    data's arrays at entry: the tensor s is split along its share between windows 0 and 1. -/
theorem hsplit (c : Dev nD) :
    (Pipeline.arrBufs spec0 c (V m c) : sProp 𝕄) ⊢ (dats m 0 c).arrays ((dats m 0 c).arrAt · 0) := by
  unfold Pipeline.arrBufs
  rw [arrays_eq, arrRefs_eq, bigSep_W0, share0, share1, share2, share3, share4, share5]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-! ## The run and the frame -/

set_option backward.isDefEq.respectTransparency.types false in
/-- Every weakly fair execution of @main terminates, and every final state has each window's array at what the
    library computes from the proof data and every other unscoped buffer as launched. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The argument arrays end unchanged: each is some input window's array, and an input's array is never written. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans (A_eq m c 0)),
   ((h c).1 2).trans (((dats m 0 c).arrAt_in 2 rfl _).trans (A_eq m c 2)),
   ((h c).1 3).trans (((dats m 0 c).arrAt_in 3 rfl _).trans (A_eq m c 3)),
   ((h c).1 4).trans (((dats m 0 c).arrAt_in 4 rfl _).trans (A_eq m c 4))⟩

/-- The result array ends at the library's `arrAt` of window 5. -/
theorem post_out (r : PUnit × MemSt nD τ sig (Elt F)) (h : Pipeline.FramePost cfgs (dats m) 0 (V m) r) (c : Dev nD) :
    r.2.mem ((c.tc : Thread nD τ).loc main_v0) = (dats m 0 c).arrAt 5 cfg0.N := (h c).1 5

/-- The frame: the program runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

end Cert.KernelIdeal.Frame

end
-- ==== Proof.Spec.lean ====
/-
  The function both programs compute, read one output row at a time.

  For a batch b and a query row n the output row depends on: the query row s[b,n,·] (10 numbers), all 2048
  key rows s[b,·,·], the row G[b,n,·] of the gate, and the two 32 × 10 projection matrices.  With
    q_j   = Σ_d s[b,n,d] · Wq[j,d]              (the projected query)
    k_m,j = Σ_d s[b,m,d] · Wk[j,d]              (the projected key m)
    l_m   = Σ_j q_j · k_m,j                     (the logit against key m)
    w_m   = (l_m · l_m) · G[b,n,m]              (the gated squared logit)
  the entry at column m is  w_m / ((Σ_m' w_m') + ε),  ε the f32 word 0x358637BD read exactly.  Everything is
  over the extended reals; only commutativity of the product is ever used to compare two spellings of it, so no
  entry need be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A row of ten numbers against row `j` of a 32 × 10 matrix. -/
def proj (x : Fin 10 → EReal) (W : Fin 32 → Fin 10 → EReal) (j : Fin 32) : EReal := ∑ d : Fin 10, x d * W j d

/-- The logit of a query row against a key row. -/
def logit (xq xk : Fin 10 → EReal) (Wq Wk : Fin 32 → Fin 10 → EReal) : EReal :=
  ∑ j : Fin 32, proj xq Wq j * proj xk Wk j

/-- The gated squared logit against key `m`. -/
def weight (xq : Fin 10 → EReal) (keys : Fin 2048 → Fin 10 → EReal) (gate : Fin 2048 → EReal)
    (Wq Wk : Fin 32 → Fin 10 → EReal) (m : Fin 2048) : EReal :=
  logit xq (keys m) Wq Wk * logit xq (keys m) Wq Wk * gate m

/-- The guard added to the row sum: the f32 word both programs carry, read exactly. -/
def eps : EReal := Ideal.ofBits .f32 0x358637BD#32

/-- One entry of the output row: the weight over the row's sum of weights plus the guard. -/
def rowOut (xq : Fin 10 → EReal) (keys : Fin 2048 → Fin 10 → EReal) (gate : Fin 2048 → EReal)
    (Wq Wk : Fin 32 → Fin 10 → EReal) (m : Fin 2048) : EReal :=
  Ideal.div (weight xq keys gate Wq Wk m) ((∑ m' : Fin 2048, weight xq keys gate Wq Wk m') + eps)

/-- The whole result array, entry by entry, as a function of the four argument arrays. -/
def attn (s : (⟨3, ![8, 2048, 10]⟩ : Shape).Idx → EReal) (g : (⟨3, ![8, 2048, 2048]⟩ : Shape).Idx → EReal)
    (Wq Wk : (⟨2, ![32, 10]⟩ : Shape).Idx → EReal) : (⟨3, ![8, 2048, 2048]⟩ : Shape).Idx → EReal := fun i =>
  rowOut (fun d => s (ix3 (i 0) (i 1) d)) (fun m d => s (ix3 (i 0) m d)) (fun m => g (ix3 (i 0) (i 1) m))
    (fun j d => Wq (ix2 j d)) (fun j d => Wk (ix2 j d)) (i 2)

/-- The key-side projection spelt with the matrix entry first: the same number. -/
theorem proj_comm (x : Fin 10 → EReal) (W : Fin 32 → Fin 10 → EReal) (j : Fin 32) :
    (∑ d : Fin 10, W j d * x d) = proj x W j :=
  Finset.sum_congr rfl fun d _ => mul_comm _ _

end Cert.Spec

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.LibTransposedProduct.lean ====
import Idealize.ShloMosaic.PureOps.Ideal
import Idealize.ShloMosaic.PureOps.Ideal.Laws
import Idealize.ShloMosaic.Lib.ValueIdx

/-!
# A matrix product whose right factor is stored transposed

`matmul_rowsT_apply`: for an `[a, k]` matrix `L` and a `[b, k]` matrix `R` (the right factor stored row by row, as a
linear layer stores its weights), the product contracted over the LAST axis of both and accumulated into zero is, at
`(r, c)`, the sum over `u < k` of `L (r, u) · R (c, u)` on the extended reals — at any extents, for any
dimension-numbers record whose operand indices have those coordinates.
-/

noncomputable section

open scoped BigOperators

namespace Cert.TransposedProduct

open Idealize.ShloMosaic Idealize.ShloMosaic.ValueIdx

/-- L · Rᵀ accumulated into zero, at `(r, c)`: row `r` of `L` against row `c` of `R`. -/
theorem matmul_rowsT_apply {a k b : ℕ} {φ₁ φ₂ : FTy}
    (D : DotDims ⟨2, ![a, k]⟩ ⟨2, ![b, k]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (L : FVec Ideal ⟨2, ![a, k]⟩ φ₁) (R : FVec Ideal ⟨2, ![b, k]⟩ φ₂) (r : Fin a) (c : Fin b) :
    FloatOps.matmul D prec L R (constant ⟨2, ![a, b]⟩ .f32 0x00000000#32) (ix2 r c)
      = ∑ u : Fin k, L (ix2 r u) * R (ix2 c u) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 c u := by
    funext ax
    match ax with
    | ⟨0, _⟩ => exact Fin.ext (hr0 _ _)
    | ⟨1, _⟩ => exact Fin.ext ((hr1 _ _).trans (contrEquiv1_symm_val D k hr hs u))
  rw [hL, hR]

end Cert.TransposedProduct

end
-- ==== Proof.KernelIdealPayload.lean ====
/-
  The body's one stored value, read entry by entry on the extended reals.

  From its five loaded blocks — the query tile x0 (1 × 1024 × 10), the key block x1 (1 × 2048 × 10), the two
  projection matrices xq, xk (32 × 10) and the gate tile xg (1 × 1024 × 2048) — the body forms
    Q = x0 · xqᵀ (1024 × 32),   Kᵀ = xk · x1ᵀ (32 × 2048),   L = Q · Kᵀ (1024 × 2048),
    W = (L ∘ L) ∘ xg,   D = rowsum W + ε,   and stores W / D.
  Entry (r, m) of that is `Spec.rowOut` of row r of x0, the rows of x1, row r of xg and the two matrices, at m.
  The only difference from the reference's spelling is the order of the two factors in Kᵀ's products.
-/
import proofs.«141427_j90787018703157_2_alg».proof.Proof.Gen.KernelIdeal.Skeleton
import proofs.«141427_j90787018703157_2_alg».proof.Proof.Spec
import proofs.«141427_j90787018703157_2_alg».proof.Proof.LibDenseRows
import proofs.«141427_j90787018703157_2_alg».proof.Proof.LibTransposedProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.Spec Cert.DenseRows Cert.TransposedProduct

variable (x0 : FVec Ideal S1x1024x10 .f32) (x1 : FVec Ideal S1x2048x10 .f32) (xq xk : FVec Ideal S32x10 .f32)
  (xg : FVec Ideal S1x1024x2048 .f32)

/-- The projected query tile Q. -/
def qTile : FVec Ideal S1024x32 .f32 :=
  matmul dot_S1024x10_S32x10_S1024x32_1_1_0_0_n_n (some .fp32)
    (shapeCast S1024x10 x0 shapeCasts_S1x1024x10_S1024x10 : FVec Ideal S1024x10 .f32) (xq : FVec Ideal S32x10 .f32)
    (constant S1024x32 .f32 0x00000000#32)

/-- The projected keys, transposed: Kᵀ. -/
def kTile : FVec Ideal S32x2048 .f32 :=
  matmul dot_S32x10_S2048x10_S32x2048_1_1_0_0_n_n (some .fp32) (xk : FVec Ideal S32x10 .f32)
    (shapeCast S2048x10 x1 shapeCasts_S1x2048x10_S2048x10 : FVec Ideal S2048x10 .f32)
    (constant S32x2048 .f32 0x00000000#32)

/-- The logits L = Q · Kᵀ. -/
def lTile : FVec Ideal S1024x2048 .f32 :=
  matmul dot_S1024x32_S32x2048_S1024x2048_1_0_0_1_n_n (some .fp32) (qTile x0 xq) (kTile x1 xk)
    (constant S1024x2048 .f32 0x00000000#32)

/-- The gated squares W. -/
def wTile : FVec Ideal S1024x2048 .f32 :=
  mulf (mulf (lTile x0 x1 xq xk) (lTile x0 x1 xq xk))
    (shapeCast S1024x2048 xg shapeCasts_S1x1024x2048_S1024x2048 : FVec Ideal S1024x2048 .f32)

/-- The row sums plus the guard, as a column. -/
def dCol : FVec Ideal S1024x1 .f32 :=
  addf (shapeCast S1024x1 (multiReduction .add [1] S1024 (wTile x0 x1 xq xk xg) 0x00000000#32 reduces_S1024x2048_S1024 (.inl rfl) rfl)
      shapeCasts_S1024_S1024x1)
    (broadcast S1024x1 (Scalar.ofBits .f32 0x358637BD#32))

/-- The stored value is the quotient, re-laid with a leading unit axis. -/
theorem pay_eq : k0_pay1 (F := Ideal) x0 x1 xq xk xg
    = shapeCast S1x1024x2048 (divf (wTile x0 x1 xq xk xg) (broadcastTo S1024x2048 (dCol x0 x1 xq xk xg) broadcasts_S1024x1_S1024x2048))
        shapeCasts_S1024x2048_S1x1024x2048 := rfl

theorem qTile_apply (r : Fin 1024) (j : Fin 32) :
    qTile x0 xq (ix2 r j) = proj (fun d => x0 (ix3 (0 : Fin 1) r d)) (fun j d => xq (ix2 j d)) j := by
  unfold qTile
  refine (matmul_rowsT_apply dot_S1024x10_S32x10_S1024x32_1_1_0_0_n_n rfl rfl (fun _ _ => rfl) (fun _ _ => rfl) (fun _ _ => rfl) (fun _ _ => rfl)
    (some .fp32) _ xq r j).trans ?_
  exact Finset.sum_congr rfl fun d _ => congrArg (· * _) (shapeCast_1ab_ab_apply x0 shapeCasts_S1x1024x10_S1024x10 r d)

theorem kTile_apply (j : Fin 32) (m : Fin 2048) :
    kTile x1 xk (ix2 j m) = proj (fun d => x1 (ix3 (0 : Fin 1) m d)) (fun j d => xk (ix2 j d)) j := by
  unfold kTile
  refine (matmul_rowsT_apply dot_S32x10_S2048x10_S32x2048_1_1_0_0_n_n rfl rfl (fun _ _ => rfl) (fun _ _ => rfl) (fun _ _ => rfl) (fun _ _ => rfl)
    (some .fp32) xk _ j m).trans ?_
  refine Eq.trans ?_ (proj_comm (fun d => x1 (ix3 (0 : Fin 1) m d)) (fun j d => xk (ix2 j d)) j)
  exact Finset.sum_congr rfl fun d _ => congrArg (_ * ·) (shapeCast_1ab_ab_apply x1 shapeCasts_S1x2048x10_S2048x10 m d)

theorem lTile_apply (r : Fin 1024) (m : Fin 2048) :
    lTile x0 x1 xq xk (ix2 r m)
      = logit (fun d => x0 (ix3 (0 : Fin 1) r d)) (fun d => x1 (ix3 (0 : Fin 1) m d)) (fun j d => xq (ix2 j d)) (fun j d => xk (ix2 j d)) := by
  unfold lTile
  refine (matmul_rows_apply dot_S1024x32_S32x2048_S1024x2048_1_0_0_1_n_n rfl rfl (fun _ _ => rfl) (fun _ _ => rfl) (fun _ _ => rfl) (fun _ _ => rfl)
    (some .fp32) _ _ r m).trans ?_
  exact Finset.sum_congr rfl fun j _ => by rw [qTile_apply, kTile_apply]

theorem wTile_apply (r : Fin 1024) (m : Fin 2048) :
    wTile x0 x1 xq xk xg (ix2 r m)
      = weight (fun d => x0 (ix3 (0 : Fin 1) r d)) (fun m d => x1 (ix3 (0 : Fin 1) m d)) (fun m => xg (ix3 (0 : Fin 1) r m))
          (fun j d => xq (ix2 j d)) (fun j d => xk (ix2 j d)) m := by
  unfold wTile
  rw [mulf_apply, mulf_apply, lTile_apply, shapeCast_1ab_ab_apply]
  unfold weight
  rfl

theorem dCol_apply (r : Fin 1024) :
    dCol x0 x1 xq xk xg (ix2 r (0 : Fin 1))
      = (∑ m : Fin 2048, weight (fun d => x0 (ix3 (0 : Fin 1) r d)) (fun m d => x1 (ix3 (0 : Fin 1) m d)) (fun m => xg (ix3 (0 : Fin 1) r m))
          (fun j d => xq (ix2 j d)) (fun j d => xk (ix2 j d)) m) + eps := by
  unfold dCol
  rw [addf_apply]
  refine congrArg₂ (· + ·) ?_ rfl
  refine (col_cast_apply _ shapeCasts_S1024_S1024x1 r).trans ?_
  refine (row_sum_apply (wTile x0 x1 xq xk xg) _ reduces_S1024x2048_S1024 _ _ r).trans ?_
  exact Finset.sum_congr rfl fun m _ => wTile_apply x0 x1 xq xk xg r m

/-- The stored value at (z, r, m). -/
theorem pay_apply (z : Fin 1) (r : Fin 1024) (m : Fin 2048) :
    k0_pay1 (F := Ideal) x0 x1 xq xk xg (ix3 z r m)
      = rowOut (fun d => x0 (ix3 (0 : Fin 1) r d)) (fun m d => x1 (ix3 (0 : Fin 1) m d)) (fun m => xg (ix3 (0 : Fin 1) r m))
          (fun j d => xq (ix2 j d)) (fun j d => xk (ix2 j d)) m := by
  rw [pay_eq, shapeCast_ab_1ab_apply, divf_apply, col_bcast_apply, wTile_apply, dCol_apply]
  rfl

end Cert.KernelIdeal.Payload

end
-- ==== Proof.KernelIdealWhole.lean ====
/-
  From blocks to the array: what the idealized kernel's result array holds at the end.

  Grid point t = (b, i) writes back the block of 1024 rows starting at row 1024·i of batch b.  What it writes
  is the body's stored value of the five input blocks at that point; by the entry-wise reading of that value
  and of each block (the query tile and the gate tile sit at the output block's own rows, the key block is
  all rows of batch b, the two matrices are whole), it is block t of `Spec.attn` of the four argument arrays.
  The sixteen blocks tile the array, so the array ends holding `Spec.attn` of the arguments.
-/
import proofs.«141427_j90787018703157_2_alg».proof.Proof.KernelIdealFrame
import proofs.«141427_j90787018703157_2_alg».proof.Proof.KernelIdealPayload
import Idealize.ShloMosaic.Lib.Pipeline.Value

set_option maxRecDepth 16384

noncomputable section

namespace Cert.KernelIdeal.Whole

open Cert.KernelIdeal Cert.KernelIdeal.Gen Cert.KernelIdeal.Frame Cert.KernelIdeal.Payload
open Idealize.ShloMosaic Idealize.ShloMosaic.TcCoe Idealize.ShloMosaic.ValueIdx Cert.Spec
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the argument arrays as launched. -/
abbrev G (c : Dev nD) : S8x2048x2048.Idx → EReal :=
  attn (V m c main_arg0) (V m c main_arg1) (V m c main_arg2) (V m c main_arg3)

/-- The printed index maps, decided over the sixteen grid points: the query tile and the gate tile move with the
    output block, the key block follows its batch only, the two matrices stay put. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = win0_5.index t (1 : Fin 3) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0 ∧ win0_5.index t (0 : Fin 3) ≤ 7 ∧ win0_5.index t (1 : Fin 3) ≤ 1 :=
  (by decide +kernel : ∀ t : Fin grid0.N, _)

/-- Every (batch, row-tile) pair is some grid point's output block. -/
theorem idx_onto : ∀ (q0 : Fin 8) (q1 : Fin 2), ∃ t : Fin cfg0.N, win0_5.index t = ![q0.val, q1.val, 0] :=
  (by decide +kernel : ∀ (q0 : Fin 8) (q1 : Fin 2), ∃ t : Fin grid0.N, win0_5.index t = ![q0.val, q1.val, 0])

/-- What point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold outBlock
  rw [View.canon_unit_zero hz3]
  simp only [View.ld_unit_zero (S := S1x1024x10) hz3, View.ld_unit_zero (S := S1x2048x10) hz3, View.ld_unit_zero (S := S32x10) hz2,
    View.ld_unit_zero (S := S1x1024x2048) hz3]
  obtain ⟨a0, a1, a2, b0, b1, b2, g0, g1, g2, q0, q1, k0, k1, o2, o0, o1⟩ := idx_facts t
  funext y
  obtain ⟨z, r, mm, rfl⟩ : ∃ (z : Fin 1) (r : Fin 1024) (mm : Fin 2048), y = ix3 z r mm := ⟨y 0, y 1, y 2, eq_ix3 y⟩
  have hz : z.val = 0 := by have := z.isLt; omega
  have hr : r.val < 1024 := r.isLt
  show k0_pay1 (F := Ideal) (iblk m c 0 t) (iblk m c 1 t) (iblk m c 3 t) (iblk m c 4 t) (iblk m c 2 t) (ix3 z r mm)
    = G m c (((cfg0.win 5).blk t).view.emb (ix3 z r mm))
  refine (pay_apply (iblk m c 0 t) (iblk m c 1 t) (iblk m c 3 t) (iblk m c 4 t) (iblk m c 2 t) z r mm).trans ?_
  have h0 : ∀ d : Fin 10, iblk m c 0 t (ix3 (0 : Fin 1) r d)
      = V m c main_arg0 (ix3 ((((cfg0.win 5).blk t).view.emb (ix3 z r mm)) 0) ((((cfg0.win 5).blk t).view.emb (ix3 z r mm)) 1) d) := fun d => by
    show V m c main_arg0 (((cfg0.win 0).blk t).view.emb (ix3 (0 : Fin 1) r d)) = _
    refine congrArg (V m c main_arg0) (funext fun a => Fin.ext ?_)
    match a with
    | ⟨0, _⟩ => show win0_0.index t (0 : Fin 3) * 1 + 1 * 0 = win0_5.index t (0 : Fin 3) * 1 + 1 * z.val; omega
    | ⟨1, _⟩ => show win0_0.index t (1 : Fin 3) * 1024 + 1 * r.val = win0_5.index t (1 : Fin 3) * 1024 + 1 * r.val; omega
    | ⟨2, _⟩ => show win0_0.index t (2 : Fin 3) * 10 + 1 * d.val = d.val; omega
  have h1 : ∀ (m' : Fin 2048) (d : Fin 10), iblk m c 1 t (ix3 (0 : Fin 1) m' d)
      = V m c main_arg0 (ix3 ((((cfg0.win 5).blk t).view.emb (ix3 z r mm)) 0) m' d) := fun m' d => by
    show V m c main_arg0 (((cfg0.win 1).blk t).view.emb (ix3 (0 : Fin 1) m' d)) = _
    refine congrArg (V m c main_arg0) (funext fun a => Fin.ext ?_)
    match a with
    | ⟨0, _⟩ => show win0_1.index t (0 : Fin 3) * 1 + 1 * 0 = win0_5.index t (0 : Fin 3) * 1 + 1 * z.val; omega
    | ⟨1, _⟩ => show win0_1.index t (1 : Fin 3) * 2048 + 1 * m'.val = m'.val; omega
    | ⟨2, _⟩ => show win0_1.index t (2 : Fin 3) * 10 + 1 * d.val = d.val; omega
  have h2 : ∀ m' : Fin 2048, iblk m c 2 t (ix3 (0 : Fin 1) r m')
      = V m c main_arg1 (ix3 ((((cfg0.win 5).blk t).view.emb (ix3 z r mm)) 0) ((((cfg0.win 5).blk t).view.emb (ix3 z r mm)) 1) m') := fun m' => by
    show V m c main_arg1 (((cfg0.win 2).blk t).view.emb (ix3 (0 : Fin 1) r m')) = _
    refine congrArg (V m c main_arg1) (funext fun a => Fin.ext ?_)
    match a with
    | ⟨0, _⟩ => show win0_2.index t (0 : Fin 3) * 1 + 1 * 0 = win0_5.index t (0 : Fin 3) * 1 + 1 * z.val; omega
    | ⟨1, _⟩ => show win0_2.index t (1 : Fin 3) * 1024 + 1 * r.val = win0_5.index t (1 : Fin 3) * 1024 + 1 * r.val; omega
    | ⟨2, _⟩ => show win0_2.index t (2 : Fin 3) * 2048 + 1 * m'.val = m'.val; omega
  have h3 : ∀ (j : Fin 32) (d : Fin 10), iblk m c 3 t (ix2 j d) = V m c main_arg2 (ix2 j d) := fun j d => by
    show V m c main_arg2 (((cfg0.win 3).blk t).view.emb (ix2 j d)) = _
    refine congrArg (V m c main_arg2) (funext fun a => Fin.ext ?_)
    match a with
    | ⟨0, _⟩ => show win0_3.index t (0 : Fin 2) * 32 + 1 * j.val = j.val; omega
    | ⟨1, _⟩ => show win0_3.index t (1 : Fin 2) * 10 + 1 * d.val = d.val; omega
  have h4 : ∀ (j : Fin 32) (d : Fin 10), iblk m c 4 t (ix2 j d) = V m c main_arg3 (ix2 j d) := fun j d => by
    show V m c main_arg3 (((cfg0.win 4).blk t).view.emb (ix2 j d)) = _
    refine congrArg (V m c main_arg3) (funext fun a => Fin.ext ?_)
    match a with
    | ⟨0, _⟩ => show win0_4.index t (0 : Fin 2) * 32 + 1 * j.val = j.val; omega
    | ⟨1, _⟩ => show win0_4.index t (1 : Fin 2) * 10 + 1 * d.val = d.val; omega
  have h5 : mm = (((cfg0.win 5).blk t).view.emb (ix3 z r mm)) 2 := Fin.ext (by
    show mm.val = win0_5.index t (2 : Fin 3) * 2048 + 1 * mm.val; omega)
  simp only [h0, h1, h2, h3, h4]
  exact congrArg _ h5

/-- An index of the array is in point `t`'s block iff each coordinate is in the block's range on its axis. -/
theorem mem_blk (t : Fin cfg0.N) (i : S8x2048x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v0).slice (win0_5.rect t)).set ↔ _
  rw [View.set_slice_whole, Rect.mem_set_unit]
  exact Iff.rfl

/-- The sixteen output blocks tile the array: entry (b, n, ·) lies in the block of point (b, n / 1024). -/
theorem covered (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- The result array after the run. -/
theorem final (c : Dev nD) : (dats m 0 c).arrAt 5 cfg0.N = G m c :=
  (dats m 0 c).arrAt_eq_of_cover 5 (G m c) (fun t _ => flushed_eq m c t) (covered)

/-- The run, read: the result array is `Spec.attn` of the arguments as launched, the arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(post_out m r h c).trans (final m c), kept m r h c⟩) (run_main m ρ)

end Cert.KernelIdeal.Whole

end
-- ==== Proof.RefValue.lean ====
/-
  The reference program's result is the row-wise function of `Spec`: its two projections are the projected
  query and key rows, its batched product their logit, and its sum over the last axis the row's sum of
  weights (started from the zero word).
-/
import proofs.«141427_j90787018703157_2_alg».proof.Proof.Gen.ReferenceIdeal.Read
import proofs.«141427_j90787018703157_2_alg».proof.Proof.Spec

noncomputable section

namespace Cert.RefValue

open Cert.ReferenceIdeal Cert.ReferenceIdeal.Gen Cert.ReferenceIdeal.Read
open Idealize.ShloMosaic Idealize.ShloMosaic.ValueIdx Cert.Spec

variable (s : (⟨S8x2048x10, .f32⟩ : BufTy).Contents (Elt Ideal)) (g : (⟨S8x2048x2048, .f32⟩ : BufTy).Contents (Elt Ideal))
  (Wq Wk : (⟨S32x10, .f32⟩ : BufTy).Contents (Elt Ideal))

/-- The first projection at (b, n, j): the query row n of batch b against row j of Wq. -/
theorem query_at (b : Fin 8) (n : Fin 2048) (j : Fin 32) :
    val_main_v0 (F := Ideal) s Wq (ix3 b n j) = proj (fun d => s (ix3 b n d)) (fun j d => Wq (ix2 j d)) j := by
  rw [val_main_v0_apply]
  exact Finset.sum_congr rfl fun d _ => congrArg₂ (· * ·)
    (congrArg s (funext fun a => by match a with | ⟨0, _⟩ => rfl | ⟨1, _⟩ => rfl | ⟨2, _⟩ => rfl))
    (congrArg Wq (funext fun a => by match a with | ⟨0, _⟩ => rfl | ⟨1, _⟩ => rfl))

/-- The second projection at (b, n, j): the same row against row j of Wk. -/
theorem key_at (b : Fin 8) (n : Fin 2048) (j : Fin 32) :
    val_main_v1 (F := Ideal) s Wk (ix3 b n j) = proj (fun d => s (ix3 b n d)) (fun j d => Wk (ix2 j d)) j := by
  rw [val_main_v1_apply]
  exact Finset.sum_congr rfl fun d _ => congrArg₂ (· * ·)
    (congrArg s (funext fun a => by match a with | ⟨0, _⟩ => rfl | ⟨1, _⟩ => rfl | ⟨2, _⟩ => rfl))
    (congrArg Wk (funext fun a => by match a with | ⟨0, _⟩ => rfl | ⟨1, _⟩ => rfl))

/-- The batched product at (b, n, m): the logit of query row n against key row m. -/
theorem logit_at (b : Fin 8) (n m : Fin 2048) :
    val_main_v2 (F := Ideal) s Wq Wk (ix3 b n m)
      = logit (fun d => s (ix3 b n d)) (fun d => s (ix3 b m d)) (fun j d => Wq (ix2 j d)) (fun j d => Wk (ix2 j d)) := by
  rw [val_main_v2_apply]
  refine Finset.sum_congr rfl fun j _ => ?_
  rw [show lidx_main_v2 (ix3 b n m) j = ix3 b n j from funext fun a => by match a with | ⟨0, _⟩ => rfl | ⟨1, _⟩ => rfl | ⟨2, _⟩ => rfl,
    show ridx_main_v2 (ix3 b n m) j = ix3 b m j from funext fun a => by match a with | ⟨0, _⟩ => rfl | ⟨1, _⟩ => rfl | ⟨2, _⟩ => rfl,
    query_at, key_at]

/-- The gated square at (b, n, m). -/
theorem weight_at (b : Fin 8) (n m : Fin 2048) :
    val_main_v4 (F := Ideal) s g Wq Wk (ix3 b n m)
      = weight (fun d => s (ix3 b n d)) (fun m d => s (ix3 b m d)) (fun m => g (ix3 b n m)) (fun j d => Wq (ix2 j d)) (fun j d => Wk (ix2 j d)) m := by
  rw [val_main_v4_apply, val_main_v3_apply, logit_at]
  simp only [Ideal.mulf_def]
  unfold weight
  rfl

/-- The reference's result is `attn` of its arguments. -/
theorem ref_eq : val_main_v10 (F := Ideal) s g Wq Wk = attn s g Wq Wk := by
  funext i
  obtain ⟨b, n, mm, rfl⟩ : ∃ (b : Fin 8) (n : Fin 2048) (mm : Fin 2048), i = ix3 b n mm := ⟨i 0, i 1, i 2, eq_ix3 i⟩
  have hrow : ∀ k : Fin 2048, idx_main_v5 (idx_main_v6 (idx_main_v9 (ix3 b n mm))) k = ix3 b n k := fun k =>
    funext fun a => by match a with | ⟨0, _⟩ => rfl | ⟨1, _⟩ => rfl | ⟨2, _⟩ => rfl
  rw [val_main_v10_apply, val_main_v9_apply, val_main_v8_apply, val_main_v6_apply, val_main_v7_apply, val_main_cst_0_apply,
    val_main_v5_apply, val_main_cst_apply]
  simp only [hrow, weight_at]
  simp only [Ideal.ofBits_def, Ideal.addf_def, Ideal.hostDivf_def, Ideal.ofBits_zero_f32, zero_add]
  unfold attn rowOut eps
  rfl

end Cert.RefValue

end
-- ==== Proof.lean ====
/-
  A gated, squared attention map:  for s : [8, 2048, 10], G : [8, 2048, 2048] and two 32 × 10 projections
  Wq, Wk, with q = s · Wqᵀ, k = s · Wkᵀ and l = q · kᵀ per batch,
      out[b, n, m] = (l[b,n,m]² · G[b,n,m]) / (Σ_m' l[b,n,m']² · G[b,n,m'] + ε).
  The kernel computes it tile by tile (1024 query rows at a time, against all 2048 key rows of the batch,
  reading the tensor s through two windows); the reference computes it whole.  On the extended reals both
  are the function `Spec.attn` of the four arguments: the kernel forms the key projection with its factors in
  the other order, which is commutativity of the product, and every sum is the same sum.  No entry need be
  finite, so the precondition is not used.

  The three frames: each kernel program by its pipeline's run (Proof/KernelFrame, Proof/KernelIdealFrame), the
  reference by its run with the result dropped.  The idealization rewrote nothing, so `preserves` is trivial.
-/
import proofs.«141427_j90787018703157_2_alg».proof.Defs
import proofs.«141427_j90787018703157_2_alg».proof.Proof.Gen.Kernel
import proofs.«141427_j90787018703157_2_alg».proof.Proof.Gen.Kernel.Skeleton
import proofs.«141427_j90787018703157_2_alg».proof.Proof.Gen.Kernel.Launch
import proofs.«141427_j90787018703157_2_alg».proof.Proof.Gen.Kernel.Points
import proofs.«141427_j90787018703157_2_alg».proof.Proof.Gen.KernelIdeal
import proofs.«141427_j90787018703157_2_alg».proof.Proof.Gen.KernelIdeal.Skeleton
import proofs.«141427_j90787018703157_2_alg».proof.Proof.Gen.KernelIdeal.Launch
import proofs.«141427_j90787018703157_2_alg».proof.Proof.Gen.KernelIdeal.Points
import proofs.«141427_j90787018703157_2_alg».proof.Proof.Gen.ReferenceIdeal
import proofs.«141427_j90787018703157_2_alg».proof.Proof.Gen.Pre_finite_inputs
import proofs.«141427_j90787018703157_2_alg».proof.Proof.Gen.ReferenceIdeal.Run
import proofs.«141427_j90787018703157_2_alg».proof.Proof.Gen.ReferenceIdeal.Read
import proofs.«141427_j90787018703157_2_alg».proof.Proof.KernelFrame
import proofs.«141427_j90787018703157_2_alg».proof.Proof.KernelIdealFrame
import proofs.«141427_j90787018703157_2_alg».proof.Proof.KernelIdealWhole
import proofs.«141427_j90787018703157_2_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Whole.G m c, Cert.KernelIdeal.Whole.run m ρ,
    (θ_run Cert.ReferenceIdeal.defs _ _).mono (fun _ h c => ⟨by
        rw [(h c).1, Cert.ReferenceIdeal.Read.val_main_v10_eq, Cert.RefValue.ref_eq, (hagree c).1, (hagree c).2.1, (hagree c).2.2.1, (hagree c).2.2.2], (h c).2⟩)
      (Cert.ReferenceIdeal.Value.run (F := Ideal) m' ρ')⟩⟩

end Cert.Proof

end
